-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S1 : Shape := ⟨1, ![1]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S8192x4096 .f32) (main_arg1 : FVec F S4096x4096 .f32) (main_arg2 : FVec F S1 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S1 : Shape := ⟨1, ![1]⟩
abbrev S1x4096 : Shape := ⟨2, ![1, 4096]⟩
abbrev S8192x512 : Shape := ⟨2, ![8192, 512]⟩
abbrev S1x512 : Shape := ⟨2, ![1, 512]⟩
abbrev S512 : Shape := ⟨1, ![512]⟩
abbrev S4096x1 : Shape := ⟨2, ![4096, 1]⟩
abbrev S1024x4096 : Shape := ⟨2, ![1024, 4096]⟩
abbrev S1024x1 : Shape := ⟨2, ![1024, 1]⟩
abbrev S1024 : Shape := ⟨1, ![1024]⟩
abbrev S1x1 : Shape := ⟨2, ![1, 1]⟩

abbrev nBuf : Space → Nat
  | .hbm => 8
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S1, .f32⟩
  | .hbm, ⟨3, _⟩ => ⟨S1x4096, .f32⟩
  | .hbm, ⟨4, _⟩ => ⟨S4096x1, .f32⟩
  | .hbm, ⟨5, _⟩ => ⟨S1x1, .f32⟩
  | .hbm, ⟨6, _⟩ => ⟨S1, .f32⟩
  | .hbm, ⟨7, _⟩ => ⟨S1, .f32⟩
  | .local _ .vmem, ⟨0, _⟩ => ⟨S8192x512, .f32⟩
  | .local _ .vmem, ⟨1, _⟩ => ⟨S8192x512, .f32⟩
  | .local _ .vmem, ⟨2, _⟩ => ⟨S1x512, .f32⟩
  | .local _ .vmem, ⟨3, _⟩ => ⟨S1x512, .f32⟩
  | .local _ .vmem, ⟨4, _⟩ => ⟨S1024x4096, .f32⟩
  | .local _ .vmem, ⟨5, _⟩ => ⟨S1024x4096, .f32⟩
  | .local _ .vmem, ⟨6, _⟩ => ⟨S1024x1, .f32⟩
  | .local _ .vmem, ⟨7, _⟩ => ⟨S1024x1, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  inb_S8192x512_S8192x512_0_0 : ∀ a, (![0, 0] : Fin 2 → Nat) a + S8192x512.size a ≤ S8192x512.size a
  h_S8192x512 : 0 < S8192x512.numel
  reduces_S8192x512_S512 : S8192x512.Reduces [0] S512
  shapeCasts_S512_S1x512 : S512.ShapeCasts S1x512
  inb_S1x512_S1x512_0_0 : ∀ a, (![0, 0] : Fin 2 → Nat) a + S1x512.size a ≤ S1x512.size a
  h_S1x512 : 0 < S1x512.numel
  inb_S1024x4096_S1024x4096_0_0 : ∀ a, (![0, 0] : Fin 2 → Nat) a + S1024x4096.size a ≤ S1024x4096.size a
  h_S1024x4096 : 0 < S1024x4096.numel
  reduces_S1024x4096_S1024 : S1024x4096.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1x1_S1 : S1x1.ShapeCasts S1
  dot_S1x4096_S4096x1_S1x1_1_0_0_1_n_n_wf : DotDims.WF S1x4096 S4096x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x512.size a ≤ S8192x4096.size a
  hwx0_0 : ∀ i : grid0.Coords, EltTy.bits .f32 = 32 ∨ (Rect.block (s := S8192x4096) S8192x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x4096.size a
  hwx0_1 : ∀ i : grid0.Coords, EltTy.bits .f32 = 32 ∨ (Rect.block (s := S1x4096) S1x512.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x4096.size a
  hwx1_0 : ∀ i : grid1.Coords, EltTy.bits .f32 = 32 ∨ (Rect.block (s := S4096x4096) S1024x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1.size a ≤ S4096x1.size a
  hwx1_1 : ∀ i : grid1.Coords, EltTy.bits .f32 = 32 ∨ (Rect.block (s := S4096x1) S1024x1.size (cc1_transform_1 i) (hinb1_1 i)).WholeWords (EltTy.packing .f32)

variable [Facts₀]

def dot_S1x4096_S4096x1_S1x1_1_0_0_1_n_n : DotDims S1x4096 S4096x1 S1x1 where
  lhsContracting := [1]
  rhsContracting := [0]
  lhsNonContracting := [0]
  rhsNonContracting := [1]
  lhsBatch := []
  rhsBatch := []
  wf := dot_S1x4096_S4096x1_S1x1_1_0_0_1_n_n_wf

abbrev win0_0 : Pipeline.Window sig grid0 :=
  Pipeline.Window.ofSpec (Memref.whole main_arg0) S8192x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x1.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S1 : Shape := ⟨1, ![1]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S1, .f32⟩
  | .hbm, ⟨3, _⟩ => ⟨S8192x4096, .f32⟩
  | .hbm, ⟨4, _⟩ => ⟨S_, .f32⟩
  | .hbm, ⟨5, _⟩ => ⟨S_, .f32⟩
  | .hbm, ⟨6, _⟩ => ⟨S1, .f32⟩
  | .hbm, ⟨7, _⟩ => ⟨S1, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  reducesTo_S8192x4096_S_d0_1 : S8192x4096.ReducesTo [0, 1] S_
  h_S_ : 0 < S_.numel
  bcast_S_S1 : S_.BroadcastsInDim S1 (![] : Fin 0 → Fin S1.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Spec.lean ====
/-
  The result both programs compute, as one function of the three argument arrays.

  `left` is an 8192 × 4096 matrix, `weight` a 4096 × 4096 matrix, `bias` a vector of length one. The result has
  one entry:
      Σ_k (Σ_r left[r, k]) * (Σ_n weight[k, n])  +  bias[0],
  the inner product of the column sums of `left` with the row sums of `weight`, plus the bias.
-/
import Idealize.ShloMosaic.PureOps.Ideal
import Idealize.ShloMosaic.Lib.ValueIdx

noncomputable section

open scoped BigOperators

namespace Cert.Spec

open Idealize.ShloMosaic Idealize.ShloMosaic.ValueIdx

/-- Column `k` of `left`, summed over its 8192 rows. -/
def colsum (L : (⟨2, ![8192, 4096]⟩ : Shape).Idx → EReal) (k : Fin 4096) : EReal := ∑ r : Fin 8192, L (ix2 r k)

/-- Row `k` of `weight`, summed over its 4096 columns. -/
def rowsum (W : (⟨2, ![4096, 4096]⟩ : Shape).Idx → EReal) (k : Fin 4096) : EReal := ∑ n : Fin 4096, W (ix2 k n)

/-- The result: the inner product of the column sums with the row sums, plus the bias. -/
def result (L : (⟨2, ![8192, 4096]⟩ : Shape).Idx → EReal) (W : (⟨2, ![4096, 4096]⟩ : Shape).Idx → EReal)
    (b : (⟨1, ![1]⟩ : Shape).Idx → EReal) : (⟨1, ![1]⟩ : Shape).Idx → EReal :=
  fun i => (∑ k : Fin 4096, colsum L k * rowsum W k) + b i

end Cert.Spec

end
-- ==== Proof.Finite.lean ====
/-
  The precondition read back: every entry of the two matrix arguments is a real number.

  The precondition is the conjunction, over the three arguments, of "every entry `x` satisfies |x| < +∞", each
  conjunct an `and`-reduction over all indices of the entrywise comparison. An `and` that comes out true had
  every operand true, so each entry of each argument has its absolute value (on the extended reals, the larger
  of `x` and `-x`) strictly below `+∞`; that excludes both infinities, and what is left of the extended reals
  is the reals.
-/
import proofs.«179853_j80822694576321_2_alg».proof.Pre_finite_inputs
import Idealize.ShloMosaic.PureOps.Ideal
import Idealize.ShloMosaic.Lib.ReduceAll
import Idealize.ShloMosaic.Lib.ValueIdx

namespace Cert.Finite

open Idealize.ShloMosaic

/-- The scalar shape has one index. -/
instance : Subsingleton Cert.Pre_finite_inputs.S_.Idx := ⟨fun _ _ => funext fun d => d.elim0⟩

/-- The f32 word `0x7F800000` denotes `+∞`. -/
theorem inf_word : Ideal.ofBits .f32 0x7F800000#32 = (⊤ : EReal) := by simp [Ideal.ofBits, Ideal.ieee]

/-- An extended real whose absolute value compares strictly below `+∞` is a real. -/
theorem real_of_abs_lt_top (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | top => simp [Ideal.cmp] at h
  | coe r => exact ⟨r, rfl⟩

/-- Under the precondition every entry of the first and of the second argument is a real. -/
theorem entries_real [Cert.Pre_finite_inputs.Facts]
    (a0 : FVec Ideal Cert.Pre_finite_inputs.S8192x4096 .f32) (a1 : FVec Ideal Cert.Pre_finite_inputs.S4096x4096 .f32)
    (a2 : FVec Ideal Cert.Pre_finite_inputs.S1 .f32)
    (h : Cert.Pre_finite_inputs.fn (F := Ideal) a0 a1 a2 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨h01, -⟩ := IntOp.andi_eq_one.1 h0
  obtain ⟨hA, hB⟩ := IntOp.andi_eq_one.1 h01
  exact ⟨fun i => real_of_abs_lt_top _ (Host.reduce_andi_all _ _ _ _ _ hA i),
    fun i => real_of_abs_lt_top _ (Host.reduce_andi_all _ _ _ _ _ hB i)⟩

end Cert.Finite
-- ==== Proof.SumLaw.lean ====
/-
  The one algebraic law of this certificate, over abstract finite index types.

  For a real matrix `l` (rows `R`, columns `K`) and a real matrix `w` (rows `K`, columns `C`), the sum of
  all entries of the product `l · w` is the inner product of the vector of column sums of `l` with the vector
  of row sums of `w`:
      Σ_r Σ_c Σ_k l r k * w k c  =  Σ_k (Σ_r l r k) * (Σ_c w k c).
  Over the reals this is distributivity and a reordering of a finite sum. On the extended reals distributivity
  fails at the infinities, so the law is stated for entries that are (coercions of) reals, and proved by pushing
  the coercion out of every sum and product.
-/
import Idealize.ShloMosaic.PureOps.Ideal

open scoped BigOperators

namespace Cert.SumLaw

/-- The coercion from the reals to the extended reals commutes with finite sums. -/
theorem coe_sum {ι : Type*} (s : Finset ι) (f : ι → ℝ) :
    ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- The law over the reals: distribute each product of two sums, then bring the contraction index outermost. -/
theorem real_law {R K C : Type*} [Fintype R] [Fintype K] [Fintype C] (l : R → K → ℝ) (w : K → C → ℝ) :
    ∑ r, ∑ c, ∑ k, l r k * w k c = ∑ k, (∑ r, l r k) * (∑ c, w k c) :=
  calc ∑ r, ∑ c, ∑ k, l r k * w k c
      = ∑ r, ∑ k, ∑ c, l r k * w k c := Finset.sum_congr rfl fun _ _ => Finset.sum_comm
    _ = ∑ k, ∑ r, ∑ c, l r k * w k c := Finset.sum_comm
    _ = ∑ k, (∑ r, l r k) * (∑ c, w k c) := Finset.sum_congr rfl fun _ _ => (Finset.sum_mul_sum _ _ _ _).symm

/-- The law on the extended reals, for matrices all of whose entries are real. -/
theorem ereal_law {R K C : Type*} [Fintype R] [Fintype K] [Fintype C] (L : R → K → EReal) (W : K → C → EReal)
    (hL : ∀ r k, ∃ x : ℝ, L r k = (x : EReal)) (hW : ∀ k c, ∃ x : ℝ, W k c = (x : EReal)) :
    ∑ r, ∑ c, ∑ k, L r k * W k c = ∑ k, (∑ r, L r k) * (∑ c, W k c) := by
  choose l hl using hL
  choose w hw using hW
  simp only [hl, hw, ← EReal.coe_mul, ← coe_sum]
  exact congrArg _ (real_law l w)

end Cert.SumLaw
-- ==== Proof.RefValue.lean ====
/-
  The reference computes the specified result, when the entries of both matrices are real.

  The reference forms the whole product matrix `left · weight` (entry (r, c) is Σ_k left[r, k] * weight[k, c]),
  sums all of its entries starting from zero, and adds the bias. Read index by index this is
      0 + Σ_(r, c) Σ_k left[r, k] * weight[k, c]  +  bias[0];
  the sum over the index pairs is the double sum over rows and columns, and the law of sums turns the triple sum
  into the inner product of the column sums of `left` with the row sums of `weight`.
-/
import proofs.«179853_j80822694576321_2_alg».proof.Proof.Gen.ReferenceIdeal.Read
import proofs.«179853_j80822694576321_2_alg».proof.Proof.Spec
import proofs.«179853_j80822694576321_2_alg».proof.Proof.SumLaw
import Idealize.ShloMosaic.PureOps.Ideal.Laws
import Idealize.ShloMosaic.Lib.ValueIdx

noncomputable section

open scoped BigOperators

namespace Cert.ReferenceIdeal.RefValue

open Cert.ReferenceIdeal Cert.ReferenceIdeal.Gen Idealize.ShloMosaic Idealize.ShloMosaic.ValueIdx

/-- The left operand's index of the product at output (r, c) and contraction position k is (r, k). -/
theorem lidx_eq (r : Fin 8192) (c : Fin 4096) (k : Fin 4096) : Read.lidx_main_v0 (ix2 r c) k = ix2 r k :=
  funext fun a => Fin.ext (by match a with | ⟨0, _⟩ => rfl | ⟨1, _⟩ => rfl)

/-- The right operand's index there is (k, c). -/
theorem ridx_eq (r : Fin 8192) (c : Fin 4096) (k : Fin 4096) : Read.ridx_main_v0 (ix2 r c) k = ix2 k c :=
  funext fun a => Fin.ext (by match a with | ⟨0, _⟩ => rfl | ⟨1, _⟩ => rfl)

/-- The reference's result is the specified one, for matrices with real entries. -/
theorem ref_eq (x0 : (⟨S8192x4096, .f32⟩ : BufTy).Contents (Elt Ideal)) (x1 : (⟨S4096x4096, .f32⟩ : BufTy).Contents (Elt Ideal))
    (x2 : (⟨S1, .f32⟩ : BufTy).Contents (Elt Ideal))
    (h0 : ∀ i, ∃ r : ℝ, x0 i = (r : EReal)) (h1 : ∀ i, ∃ r : ℝ, x1 i = (r : EReal)) :
    Read.val_main_v3 (F := Ideal) x0 x1 x2 = Cert.Spec.result x0 x1 x2 := by
  funext i
  rw [Read.val_main_v3_apply, Read.val_main_v2_apply, Read.val_main_v1_apply, Read.val_main_cst_apply]
  simp only [Read.val_main_v0_apply]
  show (Ideal.ofBits .f32 0x00000000#32 + _) + x2 i = _
  rw [Ideal.ofBits_zero_f32, zero_add, sum_idx2]
  simp only [lidx_eq, ridx_eq]
  unfold Cert.Spec.result Cert.Spec.colsum Cert.Spec.rowsum
  exact congrArg (· + x2 i) (Cert.SumLaw.ereal_law (fun r k => x0 (ix2 r k)) (fun k c => x1 (ix2 k c))
    (fun _ _ => h0 _) (fun _ _ => h1 _))

end Cert.ReferenceIdeal.RefValue

end
-- ==== Proof.LibColumnCast.lean ====
/-
  A shape cast that appends a unit axis, read at an index.

  Casting a vector of length `a` to an `a × 1` column keeps row-major positions: position `i` of the vector is
  position `i * 1 + 0` of the column. So the column at `(i, u)` — `u` the only coordinate of the unit axis — is
  the vector at `i`. The same holds for casting a `1 × 1` matrix to a vector of length one.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array cast to `[1]` reads, at its one index, the operand at `(0, 0)`. -/
theorem shapeCast_11_1_apply (x : (⟨2, ![1, 1]⟩ : Shape).Idx → α) (h : (⟨2, ![1, 1]⟩ : Shape).ShapeCasts ⟨1, ![1]⟩)
    (u : Fin 1) : shapeCast ⟨1, ![1]⟩ x h (ix1 u) = x (ix2 (0 : Fin 1) (0 : Fin 1)) :=
  shapeCast_apply x h _ _ (by
    have hu : u.val = 0 := by omega
    rw [Shape.rowMajor_val_two, Shape.rowMajor_val_one]
    show 0 * 1 + 0 = u.val
    rw [hu])

end Cert.LibColumnCast
-- ==== Proof.Blocks.lean ====
/-
  What each of the two kernels leaves in its output array, index by index.

  The first kernel walks the 8192 × 4096 matrix `left` in eight blocks of 512 whole columns; at block `t` it sums
  each of the block's 512 columns over the 8192 rows and writes the 512 sums to columns 512·t … 512·t + 511 of a
  1 × 4096 row. So entry (0, k) of that row ends as the sum of column `k` of `left`.

  The second kernel walks the 4096 × 4096 matrix `weight` in four blocks of 1024 whole rows; at block `t` it sums
  each of the block's 1024 rows over the 4096 columns and writes the sums to rows 1024·t … 1024·t + 1023 of a
  4096 × 1 column. So entry (k, 0) of that column ends as the sum of row `k` of `weight`.

  Both are stated for the contents `V` the kernel's region finds on entry, whatever they are.
-/
import proofs.«179853_j80822694576321_2_alg».proof.Proof.Gen.KernelIdeal.Frame
import proofs.«179853_j80822694576321_2_alg».proof.Proof.Spec
import proofs.«179853_j80822694576321_2_alg».proof.Proof.LibColumnCast
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Blocks

open Cert.KernelIdeal Cert.KernelIdeal.Gen Idealize.ShloMosaic Idealize.ShloMosaic.ValueIdx Idealize.ShloMosaic.TcCoe
open Idealize.SL.Sem
open Idealize.ShloMosaic.Pipeline (Dat)

/-- The offsets of a whole-buffer access are all zero. -/
theorem hz : (![0, 0] : Fin 2 → Nat) = fun _ => 0 := funext fun a => by fin_cases a <;> rfl

/-! ## The two bodies, at an index -/

/-- The first body's stored value at column `q` of its 1 × 512 block: the sum over the 8192 rows of column `q` of the
    loaded 8192 × 512 block. -/
theorem colsum_body (x0 : Vec Ideal S8192x512 .f32) (j : S1x512.Idx) :
    k0_pay1 (F := Ideal) x0 j = ∑ r : Fin 8192, x0 (ix2 r ⟨(j 1).val, idx2_lt1 j⟩) := by
  unfold k0_pay1
  refine (shapeCast_addUnit_apply ![512] _ shapeCasts_S512_S1x512 j).trans ?_
  refine (Ideal.multiReduction_add_single (φ := .f32) x0 0x00000000#32 reduces_S8192x512_S512 (.inl rfl) rfl _).trans ?_
  refine Finset.sum_congr rfl fun r _ => congrArg x0 (funext fun a => Fin.ext ?_)
  match a with
  | ⟨0, _⟩ => rfl
  | ⟨1, _⟩ => rfl

/-- The second body's stored value at row `p` of its 1024 × 1 block: the sum over the 4096 columns of row `p` of the
    loaded 1024 × 4096 block. -/
theorem rowsum_body (x0 : Vec Ideal S1024x4096 .f32) (j : S1024x1.Idx) :
    k1_pay1 (F := Ideal) x0 j = ∑ n : Fin 4096, x0 (ix2 ⟨(j 0).val, idx2_lt0 j⟩ n) := by
  unfold k1_pay1
  refine (congrArg _ (eq_ix2 j)).trans ?_
  refine (Cert.LibColumnCast.shapeCast_a_a1_apply _ shapeCasts_S1024_S1024x1 ⟨(j 0).val, idx2_lt0 j⟩ ⟨(j 1).val, idx2_lt1 j⟩).trans ?_
  refine (Ideal.multiReduction_add_single (φ := .f32) x0 0x00000000#32 reduces_S1024x4096_S1024 (.inl rfl) rfl _).trans ?_
  refine Finset.sum_congr rfl fun n _ => congrArg x0 (funext fun a => Fin.ext ?_)
  match a with
  | ⟨0, _⟩ => rfl
  | ⟨1, _⟩ => rfl

/-! ## The arrays the two kernels fill -/

/-- The 1 × 4096 row of column sums of an 8192 × 4096 matrix. -/
def colRow (L : S8192x4096.Idx → EReal) : S1x4096.Idx → EReal :=
  fun j => Cert.Spec.colsum L ⟨(j 1).val, idx2_lt1 j⟩

/-- The 4096 × 1 column of row sums of a 4096 × 4096 matrix. -/
def rowCol (W : S4096x4096.Idx → EReal) : S4096x1.Idx → EReal :=
  fun j => Cert.Spec.rowsum W ⟨(j 0).val, idx2_lt0 j⟩

variable (V : (c : Dev nD) → (b : Ref sig .tc) → Buf (Elt Ideal) ((c : Thread nD τ).loc b))

/-! ## The first kernel: column sums of `left` -/

/-- Where the blocks sit: at point `t` the input block is columns 512·t … of every row, and the output block the same
    columns of the one output row. -/
theorem blocks_at0 : ∀ t : Fin cfg0.N, win0_0.index t (0 : Fin 2) = 0 ∧ win0_0.index t (1 : Fin 2) = t.val
    ∧ win0_1.index t (0 : Fin 2) = 0 ∧ win0_1.index t (1 : Fin 2) = t.val :=
  (by decide +kernel : ∀ t : Fin grid0.N, _)

/-- What point `t` writes back is block `t` of the row of column sums of the matrix the region finds. -/
theorem flushed0 (c : Dev nD) (t : Fin cfg0.N) :
    (dat0 V c).flushed 1 t = ((cfg0.win 1).blk t).view.read (Elt Ideal) (colRow (V c main_arg0)) := by
  show (cfg0.win 1).cut (grid0.coords t) ((dat0 V c).after 1 t) = _
  rw [after0_1]
  unfold out0_1
  rw [View.canon_unit_zero hz]
  simp only [View.ld_unit_zero (S := S8192x512) hz]
  obtain ⟨e0, e1, e2, e3⟩ := blocks_at0 t
  funext j
  show k0_pay1 (iblk0 V c 0 t) j = colRow (V c main_arg0) (((cfg0.win 1).blk t).view.emb j)
  refine (colsum_body (iblk0 V c 0 t) j).trans ?_
  unfold colRow Cert.Spec.colsum
  refine Finset.sum_congr rfl fun r _ => ?_
  show V c main_arg0 (((cfg0.win 0).blk t).view.emb (ix2 r ⟨(j 1).val, _⟩))
    = V c main_arg0 (ix2 r ⟨((((cfg0.win 1).blk t).view.emb j) 1).val, _⟩)
  refine congrArg (V c main_arg0) (funext fun a => Fin.ext ?_)
  match a with
  | ⟨0, _⟩ => show win0_0.index t (0 : Fin 2) * 8192 + 1 * r.val = r.val; omega
  | ⟨1, _⟩ =>
    show win0_0.index t (1 : Fin 2) * 512 + 1 * (j 1).val = win0_1.index t (1 : Fin 2) * 512 + 1 * (j 1).val
    omega

/-- An index of the output row is in point `t`'s block iff each coordinate is in the block's range on its axis. -/
theorem mem_blk0 (t : Fin cfg0.N) (i : S1x4096.Idx) :
    i ∈ ((cfg0.win 1).blk t).view.set ↔ ∀ a : Fin 2, win0_1.index t a * S1x512.size a ≤ (i a).val
      ∧ (i a).val < win0_1.index t a * S1x512.size a + S1x512.size a := by
  show i ∈ ((View.whole main_v0).slice (win0_1.rect t)).set ↔ _
  rw [View.set_slice_whole, Rect.mem_set_unit]
  exact Iff.rfl

/-- Column `k` of the output row is written at point `k / 512`. -/
theorem cover0 (i : S1x4096.Idx) :
    ∃ t : Fin cfg0.N, (cfg0.win 1).flush t = true ∧ i ∈ ((cfg0.win 1).blk t).view.set := by
  have hi0 : (i 0).val < 1 := (i 0).isLt
  have hi1 : (i 1).val < 4096 := (i 1).isLt
  obtain ⟨t, ht⟩ : ∃ t : Fin cfg0.N, t.val = (i 1).val / 512 :=
    ⟨⟨(i 1).val / 512, by show _ < grid0.N; rw [N_0]; omega⟩, rfl⟩
  refine ⟨t, flush0_1 t, ?_⟩
  rw [mem_blk0]
  obtain ⟨e0, e1, e2, e3⟩ := blocks_at0 t
  intro a
  match a with
  | ⟨0, _⟩ =>
    show win0_1.index t (0 : Fin 2) * 1 ≤ (i 0).val ∧ (i 0).val < win0_1.index t (0 : Fin 2) * 1 + 1
    omega
  | ⟨1, _⟩ =>
    show win0_1.index t (1 : Fin 2) * 512 ≤ (i 1).val ∧ (i 1).val < win0_1.index t (1 : Fin 2) * 512 + 512
    omega

/-- After the first kernel its output array is the row of column sums. -/
theorem final0 (c : Dev nD) : (dat0 V c).arrAt 1 cfg0.N = colRow (V c main_arg0) :=
  (dat0 V c).arrAt_eq_of_cover 1 (colRow (V c main_arg0)) (fun t _ => flushed0 V c t) cover0

/-! ## The second kernel: row sums of `weight` -/

/-- Where the blocks sit: at point `t` the input block is rows 1024·t … with every column, and the output block the
    same rows of the one output column. -/
theorem blocks_at1 : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point `t` writes back is block `t` of the column of row sums of the matrix the region finds. -/
theorem flushed1 (c : Dev nD) (t : Fin cfg1.N) :
    (dat1 V c).flushed 1 t = ((cfg1.win 1).blk t).view.read (Elt Ideal) (rowCol (V c main_arg1)) := by
  show (cfg1.win 1).cut (grid1.coords t) ((dat1 V c).after 1 t) = _
  rw [after1_1]
  unfold out1_1
  rw [View.canon_unit_zero hz]
  simp only [View.ld_unit_zero (S := S1024x4096) hz]
  obtain ⟨e0, e1, e2, e3⟩ := blocks_at1 t
  funext j
  show k1_pay1 (iblk1 V c 0 t) j = rowCol (V c main_arg1) (((cfg1.win 1).blk t).view.emb j)
  refine (rowsum_body (iblk1 V c 0 t) j).trans ?_
  unfold rowCol Cert.Spec.rowsum
  refine Finset.sum_congr rfl fun n _ => ?_
  show V c main_arg1 (((cfg1.win 0).blk t).view.emb (ix2 ⟨(j 0).val, _⟩ n))
    = V c main_arg1 (ix2 ⟨((((cfg1.win 1).blk t).view.emb j) 0).val, _⟩ n)
  refine congrArg (V c main_arg1) (funext fun a => Fin.ext ?_)
  match a with
  | ⟨0, _⟩ =>
    show win1_0.index t (0 : Fin 2) * 1024 + 1 * (j 0).val = win1_1.index t (0 : Fin 2) * 1024 + 1 * (j 0).val
    omega
  | ⟨1, _⟩ => show win1_0.index t (1 : Fin 2) * 4096 + 1 * n.val = n.val; omega

/-- An index of the output column is in point `t`'s block iff each coordinate is in the block's range on its axis. -/
theorem mem_blk1 (t : Fin cfg1.N) (i : S4096x1.Idx) :
    i ∈ ((cfg1.win 1).blk t).view.set ↔ ∀ a : Fin 2, win1_1.index t a * S1024x1.size a ≤ (i a).val
      ∧ (i a).val < win1_1.index t a * S1024x1.size a + S1024x1.size a := by
  show i ∈ ((View.whole main_v1).slice (win1_1.rect t)).set ↔ _
  rw [View.set_slice_whole, Rect.mem_set_unit]
  exact Iff.rfl

/-- Row `k` of the output column is written at point `k / 1024`. -/
theorem cover1 (i : S4096x1.Idx) :
    ∃ t : Fin cfg1.N, (cfg1.win 1).flush t = true ∧ i ∈ ((cfg1.win 1).blk t).view.set := by
  have hi0 : (i 0).val < 4096 := (i 0).isLt
  have hi1 : (i 1).val < 1 := (i 1).isLt
  obtain ⟨t, ht⟩ : ∃ t : Fin cfg1.N, t.val = (i 0).val / 1024 :=
    ⟨⟨(i 0).val / 1024, by show _ < grid1.N; rw [N_1]; omega⟩, rfl⟩
  refine ⟨t, flush1_1 t, ?_⟩
  rw [mem_blk1]
  obtain ⟨e0, e1, e2, e3⟩ := blocks_at1 t
  intro a
  match a with
  | ⟨0, _⟩ =>
    show win1_1.index t (0 : Fin 2) * 1024 ≤ (i 0).val ∧ (i 0).val < win1_1.index t (0 : Fin 2) * 1024 + 1024
    omega
  | ⟨1, _⟩ =>
    show win1_1.index t (1 : Fin 2) * 1 ≤ (i 1).val ∧ (i 1).val < win1_1.index t (1 : Fin 2) * 1 + 1
    omega

/-- After the second kernel its output array is the column of row sums. -/
theorem final1 (c : Dev nD) : (dat1 V c).arrAt 1 cfg1.N = rowCol (V c main_arg1) :=
  (dat1 V c).arrAt_eq_of_cover 1 (rowCol (V c main_arg1)) (fun t _ => flushed1 V c t) cover1

end Cert.KernelIdeal.Blocks

end
-- ==== Proof.KRun.lean ====
/-
  The idealized kernel's run, with its result named.

  The program is: the first kernel (column sums of `left` into a 1 × 4096 row), the second kernel (row sums of
  `weight` into a 4096 × 1 column), then on the host the 1 × 1 product of that row with that column, reshaped to a
  vector of length one, plus `bias`. Each kernel writes only its own output array, so the row is still in place
  when the host reads it after the second kernel, and the second kernel still finds `weight` as launched. The
  1 × 1 product is Σ_k row[0, k] * column[k, 0], which is the inner product of the column sums with the row sums:
  the specified result, with no appeal to finiteness (nothing is distributed or cancelled on this side).
-/
import proofs.«179853_j80822694576321_2_alg».proof.Proof.Gen.KernelIdeal.Frame
import proofs.«179853_j80822694576321_2_alg».proof.Proof.Spec
import proofs.«179853_j80822694576321_2_alg».proof.Proof.Blocks
import proofs.«179853_j80822694576321_2_alg».proof.Proof.LibColumnCast
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KRun

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-! ## The host's last three operations as one function -/

/-- The product of a 1 × 4096 row with a 4096 × 1 column, as a vector of length one, plus a vector of length one. -/
def tailFn (a : FVec Ideal S1x4096 .f32) (b : FVec Ideal S4096x1 .f32)
    (bias : FVec Ideal S1 .f32) : FVec Ideal S1 .f32 :=
  addf (F := Ideal) (shapeCast S1 (Host.dotGeneral (F := Ideal) dot_S1x4096_S4096x1_S1x1_1_0_0_1_n_n none a b) shapeCasts_S1x1_S1) bias

/-- The row's index of the product at its one output entry and contraction position `q`: row coordinate that of the
    output, column coordinate `q`. -/
theorem lhs_0 (i : S1x1.Idx) (q : dot_S1x4096_S4096x1_S1x1_1_0_0_1_n_n.contr.Idx) :
    (dot_S1x4096_S4096x1_S1x1_1_0_0_1_n_n.lhsIdx i q 0).val = (i 0).val := by
  unfold DotDims.lhsIdx
  rw [dif_neg (show ¬(0 : Fin S1x4096.rank) ∈ dot_S1x4096_S4096x1_S1x1_1_0_0_1_n_n.lhsBatch by decide),
    dif_pos (show (0 : Fin S1x4096.rank) ∈ dot_S1x4096_S4096x1_S1x1_1_0_0_1_n_n.lhsNonContracting by decide)]
  rfl
theorem lhs_1 (i : S1x1.Idx) (q : dot_S1x4096_S4096x1_S1x1_1_0_0_1_n_n.contr.Idx) :
    (dot_S1x4096_S4096x1_S1x1_1_0_0_1_n_n.lhsIdx i q 1).val = (q ⟨0, by decide⟩).val :=
  dot_S1x4096_S4096x1_S1x1_1_0_0_1_n_n.lhsIdx_val_of_single rfl i q
/-- The column's index there: row coordinate `q`, column coordinate that of the output. -/
theorem rhs_0 (i : S1x1.Idx) (q : dot_S1x4096_S4096x1_S1x1_1_0_0_1_n_n.contr.Idx) :
    (dot_S1x4096_S4096x1_S1x1_1_0_0_1_n_n.rhsIdx i q 0).val = (q ⟨0, by decide⟩).val :=
  dot_S1x4096_S4096x1_S1x1_1_0_0_1_n_n.rhsIdx_val_of_single rfl i q
theorem rhs_1 (i : S1x1.Idx) (q : dot_S1x4096_S4096x1_S1x1_1_0_0_1_n_n.contr.Idx) :
    (dot_S1x4096_S4096x1_S1x1_1_0_0_1_n_n.rhsIdx i q 1).val = (i 1).val := by
  unfold DotDims.rhsIdx
  rw [dif_neg (show ¬(1 : Fin S4096x1.rank) ∈ dot_S1x4096_S4096x1_S1x1_1_0_0_1_n_n.rhsBatch by decide),
    dif_pos (show (1 : Fin S4096x1.rank) ∈ dot_S1x4096_S4096x1_S1x1_1_0_0_1_n_n.rhsNonContracting by decide)]
  rfl

/-- The 1 × 1 product at its one entry: the sum over `k` of the row at (0, k) times the column at (k, 0). -/
theorem dot_apply (a : FVec Ideal S1x4096 .f32) (b : FVec Ideal S4096x1 .f32)
    (u v : Fin 1) :
    Host.dotGeneral (F := Ideal) dot_S1x4096_S4096x1_S1x1_1_0_0_1_n_n none a b (ix2 u v)
      = ∑ k : Fin 4096, a (ix2 (0 : Fin 1) k) * b (ix2 k (0 : Fin 1)) := by
  simp only [Host.dotGeneral]
  rw [Ideal.dotGeneral_apply, ← Equiv.sum_comp (contrEquiv1 dot_S1x4096_S4096x1_S1x1_1_0_0_1_n_n 4096 rfl rfl).symm]
  refine Finset.sum_congr rfl fun k _ => ?_
  have hk := contrEquiv1_symm_val dot_S1x4096_S4096x1_S1x1_1_0_0_1_n_n 4096 rfl rfl k
  have hu : u.val = 0 := by omega
  have hv : v.val = 0 := by omega
  have el : dot_S1x4096_S4096x1_S1x1_1_0_0_1_n_n.lhsIdx (ix2 u v) ((contrEquiv1 dot_S1x4096_S4096x1_S1x1_1_0_0_1_n_n 4096 rfl rfl).symm k)
      = ix2 (0 : Fin 1) k := funext fun d => Fin.ext (by
    match d with
    | ⟨0, _⟩ => exact (lhs_0 _ _).trans hu
    | ⟨1, _⟩ => exact (lhs_1 _ _).trans hk)
  have er : dot_S1x4096_S4096x1_S1x1_1_0_0_1_n_n.rhsIdx (ix2 u v) ((contrEquiv1 dot_S1x4096_S4096x1_S1x1_1_0_0_1_n_n 4096 rfl rfl).symm k)
      = ix2 k (0 : Fin 1) := funext fun d => Fin.ext (by
    match d with
    | ⟨0, _⟩ => exact (rhs_0 _ _).trans hk
    | ⟨1, _⟩ => exact (rhs_1 _ _).trans hv)
  rw [el, er]

/-- The host's tail applied to the row of column sums, the column of row sums and the bias is the specified result. -/
theorem tail_spec (L : S8192x4096.Idx → EReal) (W : S4096x4096.Idx → EReal) (bias : S1.Idx → EReal) :
    tailFn (Blocks.colRow L) (Blocks.rowCol W) bias = Cert.Spec.result L W bias := by
  funext i
  obtain ⟨u, rfl⟩ : ∃ u : Fin 1, i = ix1 u := ⟨i 0, eq_ix1 i⟩
  unfold tailFn
  refine (addf_apply _ _ _).trans ?_
  refine congrArg (· + bias (ix1 u)) ?_
  refine (Cert.LibColumnCast.shapeCast_11_1_apply _ shapeCasts_S1x1_S1 u).trans ?_
  refine (dot_apply _ _ 0 0).trans ?_
  rfl

/-! ## The buffers the host's tail reads -/

variable (m : (ℓ : Loc nD τ sig) → Buf (Elt Ideal) ℓ) (ρ : Dev nD → PrngReg)

/-- After both kernels the first kernel's output array still holds the row of column sums of `left`: the second
    kernel does not write it. -/
theorem row_value (c : Dev nD) :
    W2 m ρ c (Proc.devRef .tc main_v0) = Blocks.colRow (m ((c : Thread nD τ).loc main_arg0)) :=
  (W2_of_ne m ρ c main_v0 (by decide)).trans ((W1_arr m ρ c 1).trans (Blocks.final0 (V0 m ρ) c))

/-- After both kernels the second kernel's output array holds the column of row sums of `weight`, which the second
    kernel found as launched: the first kernel does not write it. -/
theorem column_value (c : Dev nD) :
    W2 m ρ c (Proc.devRef .tc main_v1) = Blocks.rowCol (m ((c : Thread nD τ).loc main_arg1)) :=
  (W2_arr m ρ c 1).trans ((Blocks.final1 (V1 m ρ) c).trans
    (congrArg Blocks.rowCol (W1_of_ne m ρ c main_arg1 (by decide))))

/-- Neither kernel writes `bias`. -/
theorem bias_value (c : Dev nD) :
    W2 m ρ c (Proc.devRef .tc main_arg2) = m ((c : Thread nD τ).loc main_arg2) :=
  (W2_of_ne m ρ c main_arg2 (by decide)).trans (W1_of_ne m ρ c main_arg2 (by decide))

/-- The result buffer after the host's tail is the tail's function of the three buffers it reads. -/
theorem tail_value (c : Dev nD) :
    W3 m ρ c (Proc.devRef .tc main_v4)
      = tailFn (W2 m ρ c (Proc.devRef .tc main_v0)) (W2 m ρ c (Proc.devRef .tc main_v1)) (W2 m ρ c (Proc.devRef .tc main_arg2)) := by
  show StableHlo.after hostOps2 (W2 m ρ c) (Proc.devRef .tc main_v4) = _
  after_results
  rfl

/-- The result buffer at the end of the program is the specified result of the launch arguments. -/
theorem result_value (c : Dev nD) :
    W3 m ρ c (Proc.devRef .tc main_v4)
      = Cert.Spec.result (m ((c : Thread nD τ).loc main_arg0)) (m ((c : Thread nD τ).loc main_arg1)) (m ((c : Thread nD τ).loc main_arg2)) := by
  rw [tail_value m ρ c, row_value m ρ c, column_value m ρ c, bias_value m ρ c]
  exact tail_spec _ _ _

/-! ## The run -/

set_option backward.isDefEq.respectTransparency.types false in
/-- From any memory with zero counters every weakly fair execution of the idealized kernel terminates, nothing
    faulting, with the result buffer at the specified result of the launch arguments and the arguments unchanged:
    the program's segments (two kernel regions, then the host's tail) run in order, the last thread state holds every
    unscoped buffer at the contents after the tail, and the result buffer and the arguments are read off it. -/
theorem run : θ_run defs (onTc (τ := τ) (main (F := Ideal))) ⟨m, fun _ => 0, ρ⟩ (fun r => ∀ c : Dev nD,
      r.2.mem ((c.tc : Thread nD τ).loc main_v4)
        = Cert.Spec.result (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v4 (by decide))).trans (result_value m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.KRun

end
-- ==== Proof.lean ====
/-
  The certificate: the kernel and the reference compute the same extended real.

  The kernel computes the inner product of the column sums of `left` with the row sums of `weight`, plus `bias`:
  two streaming reductions and a 4096-term dot product. The reference computes the sum of all entries of the
  matrix product `left · weight`, plus `bias`. The two agree because
      Σ_(r, c) Σ_k left[r, k] * weight[k, c] = Σ_k (Σ_r left[r, k]) * (Σ_c weight[k, c]),
  which is distributivity and a reordering of finite sums. Distributivity fails on the extended reals at the
  infinities, so this is where the precondition is used: every entry of `left` and `weight` is finite, hence a
  real, and the law holds over the reals. `bias` is only added at the end on both sides and may be anything.

  The three programs' runs: the word-level kernel and its idealization terminate without fault with the arguments
  unchanged; the reference is a straight line of host operations, whose run gives its result as a term of the
  arguments. No rewrite was applied in idealizing the kernel, so nothing is owed for it.
-/
import proofs.«179853_j80822694576321_2_alg».proof.Defs
import proofs.«179853_j80822694576321_2_alg».proof.Proof.Gen.Kernel
import proofs.«179853_j80822694576321_2_alg».proof.Proof.Gen.Kernel.Skeleton
import proofs.«179853_j80822694576321_2_alg».proof.Proof.Gen.Kernel.Launch
import proofs.«179853_j80822694576321_2_alg».proof.Proof.Gen.Kernel.Points
import proofs.«179853_j80822694576321_2_alg».proof.Proof.Gen.Kernel.Frame
import proofs.«179853_j80822694576321_2_alg».proof.Proof.Gen.KernelIdeal
import proofs.«179853_j80822694576321_2_alg».proof.Proof.Gen.KernelIdeal.Skeleton
import proofs.«179853_j80822694576321_2_alg».proof.Proof.Gen.KernelIdeal.Launch
import proofs.«179853_j80822694576321_2_alg».proof.Proof.Gen.KernelIdeal.Points
import proofs.«179853_j80822694576321_2_alg».proof.Proof.Gen.KernelIdeal.Frame
import proofs.«179853_j80822694576321_2_alg».proof.Proof.Gen.ReferenceIdeal
import proofs.«179853_j80822694576321_2_alg».proof.Proof.Gen.Pre_finite_inputs
import proofs.«179853_j80822694576321_2_alg».proof.Proof.Gen.ReferenceIdeal.Run
import proofs.«179853_j80822694576321_2_alg».proof.Proof.Gen.ReferenceIdeal.Read
import proofs.«179853_j80822694576321_2_alg».proof.Proof.Spec
import proofs.«179853_j80822694576321_2_alg».proof.Proof.Finite
import proofs.«179853_j80822694576321_2_alg».proof.Proof.RefValue
import proofs.«179853_j80822694576321_2_alg».proof.Proof.KRun
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  -- the word-level kernel runs and keeps its arguments
  fun m ρ _ => Cert.Kernel.Gen.frame m ρ,
  -- so does its idealization
  fun m ρ _ => Cert.KernelIdeal.Gen.frame m ρ,
  -- the reference's run, its result dropped
  fun m ρ _ => (θ_run Cert.ReferenceIdeal.defs _ _).mono (fun _ h c => (h c).2) (Cert.ReferenceIdeal.Value.run (F := Ideal) m ρ),
  -- the idealization rewrote nothing
  trivial,
  -- both idealized programs end at the specified result of the kernel's arguments
  fun m ρ m' ρ' hpre hagree =>
    ⟨fun c => Cert.Spec.result (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)),
      Cert.KernelIdeal.KRun.run m ρ,
      (θ_run Cert.ReferenceIdeal.defs _ _).mono (fun _ h c => ⟨by
          obtain ⟨h0, h1⟩ := Cert.Finite.entries_real _ _ _ (hpre c)
          rw [(h c).1, Cert.ReferenceIdeal.Read.val_main_v3_eq, (hagree c).1, (hagree c).2.1, (hagree c).2.2]
          exact Cert.ReferenceIdeal.RefValue.ref_eq _ _ _ h0 h1, (h c).2⟩)
        (Cert.ReferenceIdeal.Value.run (F := Ideal) m' ρ')⟩⟩

end Cert.Proof

end
